-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x512 : Shape := ⟨2, ![5000, 512]⟩
abbrev S5000x256 : Shape := ⟨2, ![5000, 256]⟩
abbrev S850000x256 : Shape := ⟨2, ![850000, 256]⟩
abbrev S1x256 : Shape := ⟨2, ![1, 256]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 93
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x512, .bf16⟩
  | .hbm, ⟨47, _⟩ => ⟨S512x256, .bf16⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .bf16⟩
  | .hbm, ⟨72, _⟩ => ⟨S256x128, .bf16⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .bf16⟩
  | .local _ .vmem, ⟨6, _⟩ => ⟨S5000x256, .bf16⟩
  | .local _ .vmem, ⟨7, _⟩ => ⟨S256x128, .bf16⟩
  | .local _ .vmem, ⟨8, _⟩ => ⟨S5000x128, .f32⟩
  | .local _ .vmem, ⟨9, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v30) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.BodySum.lean ====
/-
  The two kernel bodies at the extended reals, entry by entry. Each body loads a block of rows of the left factor and the
  whole right factor, multiplies them into a zero accumulator and stores the product: entry (r, c) of what it stores is
  the sum over the contracted index k of (block of the left factor)(r, k) · (right factor)(k, c).
-/
import proofs.«110435_j10960756540204_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.Body

open Cert.KernelIdeal Cert.KernelIdeal.Gen

/-! ## The first product: a [5000, 512] block of rows times the [512, 256] factor -/

/-- Row r of the left block at contraction index k. -/
abbrev lrow0 (j : S5000x256.Idx) (k : Fin 512) : S5000x512.Idx := fun a => match a with
  | ⟨0, _⟩ => ⟨(j 0).val, (j 0).isLt⟩
  | ⟨1, _⟩ => ⟨k.val, k.isLt⟩
/-- Column c of the right factor at contraction index k. -/
abbrev rcol0 (j : S5000x256.Idx) (k : Fin 512) : S512x256.Idx := fun a => match a with
  | ⟨0, _⟩ => ⟨k.val, k.isLt⟩
  | ⟨1, _⟩ => ⟨(j 1).val, (j 1).isLt⟩

theorem lhs0_0 (j : S5000x256.Idx) (q : dot_S5000x512_S512x256_S5000x256_1_0_0_1_n_n.contr.Idx) :
    (dot_S5000x512_S512x256_S5000x256_1_0_0_1_n_n.lhsIdx j q 0).val = (j 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
theorem lhs0_1 (j : S5000x256.Idx) (q : dot_S5000x512_S512x256_S5000x256_1_0_0_1_n_n.contr.Idx) :
    (dot_S5000x512_S512x256_S5000x256_1_0_0_1_n_n.lhsIdx j q 1).val = (q ⟨0, by decide⟩).val :=
  dot_S5000x512_S512x256_S5000x256_1_0_0_1_n_n.lhsIdx_val_of_single rfl j q
theorem rhs0_0 (j : S5000x256.Idx) (q : dot_S5000x512_S512x256_S5000x256_1_0_0_1_n_n.contr.Idx) :
    (dot_S5000x512_S512x256_S5000x256_1_0_0_1_n_n.rhsIdx j q 0).val = (q ⟨0, by decide⟩).val :=
  dot_S5000x512_S512x256_S5000x256_1_0_0_1_n_n.rhsIdx_val_of_single rfl j q
theorem rhs0_1 (j : S5000x256.Idx) (q : dot_S5000x512_S512x256_S5000x256_1_0_0_1_n_n.contr.Idx) :
    (dot_S5000x512_S512x256_S5000x256_1_0_0_1_n_n.rhsIdx j q 1).val = (j 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- The first body's stored value at entry j: the sum over k of left(row of j, k) · right(k, column of j). -/
theorem pay0_apply (x0 : Vec Ideal S5000x512 .bf16) (x1 : Vec Ideal S512x256 .bf16) (j : S5000x256.Idx) :
    k0_pay1 (F := Ideal) x0 x1 j = ∑ k : Fin 512, x0 (lrow0 j k) * x1 (rcol0 j k) := by
  unfold k0_pay1
  simp only [shapeCast_self, matmul]
  rw [Ideal.matmul_constant_zero_apply, ← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx j ((ValueIdx.contrEquiv1 dot_S5000x512_S512x256_S5000x256_1_0_0_1_n_n 512 rfl rfl).symm k) = lrow0 j k := funext fun a => Fin.ext (by
    match a with
    | ⟨0, _⟩ => exact lhs0_0 _ _
    | ⟨1, _⟩ => exact (lhs0_1 _ _).trans hk)
  have er : dot_S5000x512_S512x256_S5000x256_1_0_0_1_n_n.rhsIdx j ((ValueIdx.contrEquiv1 dot_S5000x512_S512x256_S5000x256_1_0_0_1_n_n 512 rfl rfl).symm k) = rcol0 j k := funext fun a => Fin.ext (by
    match a with
    | ⟨0, _⟩ => exact (rhs0_0 _ _).trans hk
    | ⟨1, _⟩ => exact rhs0_1 _ _)
  rw [el, er]

/-! ## The second product: a [5000, 256] block of rows times the [256, 128] factor -/

/-- Row r of the left block at contraction index k. -/
abbrev lrow1 (j : S5000x128.Idx) (k : Fin 256) : S5000x256.Idx := fun a => match a with
  | ⟨0, _⟩ => ⟨(j 0).val, (j 0).isLt⟩
  | ⟨1, _⟩ => ⟨k.val, k.isLt⟩
/-- Column c of the right factor at contraction index k. -/
abbrev rcol1 (j : S5000x128.Idx) (k : Fin 256) : S256x128.Idx := fun a => match a with
  | ⟨0, _⟩ => ⟨k.val, k.isLt⟩
  | ⟨1, _⟩ => ⟨(j 1).val, (j 1).isLt⟩

theorem lhs1_0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs1_1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs1_0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs1_1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second body's stored value at entry j: the sum over k of left(row of j, k) · right(k, column of j). -/
theorem pay1_apply (x0 : Vec Ideal S5000x256 .bf16) (x1 : Vec Ideal S256x128 .bf16) (j : S5000x128.Idx) :
    k1_pay1 (F := Ideal) x0 x1 j = ∑ k : Fin 256, x0 (lrow1 j k) * x1 (rcol1 j k) := by
  unfold k1_pay1
  simp only [shapeCast_self, matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrow1 j k := funext fun a => Fin.ext (by
    match a with
    | ⟨0, _⟩ => exact lhs1_0 _ _
    | ⟨1, _⟩ => exact (lhs1_1 _ _).trans hk)
  have er : dot_S5000x256_S256x128_S5000x128_1_0_0_1_n_n.rhsIdx j ((ValueIdx.contrEquiv1 dot_S5000x256_S256x128_S5000x128_1_0_0_1_n_n 256 rfl rfl).symm k) = rcol1 j k := funext fun a => Fin.ext (by
    match a with
    | ⟨0, _⟩ => exact (rhs1_0 _ _).trans hk
    | ⟨1, _⟩ => exact rhs1_1 _ _)
  rw [el, er]

end Cert.KernelIdeal.Body

end
-- ==== Proof.BlockProducts.lean ====
/-
  From blocks to arrays. Each grid multiplies ten blocks of 5000 rows of its left operand by its whole right operand and
  writes the ten products back as ten blocks of 5000 rows of its output array. The blocks tile the output, so after the
  grid the output array is the matrix product of the two arrays the grid found, over the extended reals: entry (r, c) is
  the sum over k of left(r, k) · right(k, c) — whatever the contents of the two arrays are.
-/
import proofs.«110435_j10960756540204_1_alg».proof.Proof.Gen.KernelIdeal.Frame
import proofs.«110435_j10960756540204_1_alg».proof.Proof.BodySum

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-! ## The first grid: [50000, 512] · [512, 256] by blocks of 5000 rows -/

/-- Row i₀ of the whole left factor at contraction index k. -/
abbrev lrowA0 (i : S50000x256.Idx) (k : Fin 512) : S50000x512.Idx := fun a => match a with
  | ⟨0, _⟩ => ⟨(i 0).val, (i 0).isLt⟩
  | ⟨1, _⟩ => ⟨k.val, k.isLt⟩
/-- Column i₁ of the right factor at contraction index k. -/
abbrev rcolA0 (i : S50000x256.Idx) (k : Fin 512) : S512x256.Idx := fun a => match a with
  | ⟨0, _⟩ => ⟨k.val, k.isLt⟩
  | ⟨1, _⟩ => ⟨(i 1).val, (i 1).isLt⟩

/-- The matrix product over the extended reals: entry (r, c) is the sum over k of x(r, k) · w(k, c). -/
def prod0 (x : Vec Ideal S50000x512 .bf16) (w : Vec Ideal S512x256 .bf16) : Vec Ideal S50000x256 .f32 :=
  fun i => ∑ k : Fin 512, x (lrowA0 i k) * w (rcolA0 i k)

/-- One entry of a block's product is one entry of the whole product, once the block's row and the factor's column are
    the whole arrays' row and column. -/
theorem entry0 (X : Vec Ideal S50000x512 .bf16) (W : Vec Ideal S512x256 .bf16) (xb : Vec Ideal S5000x512 .bf16) (wb : Vec Ideal S512x256 .bf16)
    (j : S5000x256.Idx) (i : S50000x256.Idx) (hx : ∀ k, xb (lrow0 j k) = X (lrowA0 i k)) (hw : ∀ k, wb (rcol0 j k) = W (rcolA0 i k)) :
    k0_pay1 (F := Ideal) xb wb j = prod0 X W i :=
  (pay0_apply xb wb j).trans (Finset.sum_congr rfl fun k _ => by rw [hx k, hw k])

/-- Where the blocks sit: at point t the left factor's block and the output's block are rows 5000·t … 5000·t + 4999, all
    columns; the right factor's block is the whole factor. -/
theorem where0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) = t.val :=
  (by decide +kernel : ∀ t : Fin grid0.N, _)

/-- What point t writes back is block t of the product of the two arrays the grid finds. -/
theorem flushed0_eq (c : Dev nD) (t : Fin cfg0.N) :
    (dat0 V c).flushed 2 t = ((cfg0.win 2).blk t).view.read (Elt Ideal) (prod0 (V c main_v30) (V c main_v31)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x256) hz]
  obtain ⟨e0, e1, e2, e3, e4, e5⟩ := where0 t
  funext j
  refine entry0 (V c main_v30) (V c main_v31) (iblk0 V c 0 t) (iblk0 V c 1 t) j (((cfg0.win 2).blk t).view.emb j) (fun k => ?_) (fun k => ?_)
  · show V c main_v30 (((cfg0.win 0).blk t).view.emb (lrow0 j k)) = V c main_v30 (lrowA0 (((cfg0.win 2).blk t).view.emb j) k)
    have h0 : ((cfg0.win 0).blk t).view.emb (lrow0 j k) = lrowA0 (((cfg0.win 2).blk t).view.emb j) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 512 + 1 * k.val = k.val; omega
    rw [h0]
  · show V c main_v31 (((cfg0.win 1).blk t).view.emb (rcol0 j k)) = V c main_v31 (rcolA0 (((cfg0.win 2).blk t).view.emb j) k)
    have h1 : ((cfg0.win 1).blk t).view.emb (rcol0 j k) = rcolA0 (((cfg0.win 2).blk t).view.emb j) k := by
      funext a; apply Fin.ext
      match a with
      | ⟨0, _⟩ => show win0_1.index t (0 : Fin 2) * 512 + 1 * k.val = k.val; omega
      | ⟨1, _⟩ => show win0_1.index t (1 : Fin 2) * 256 + 1 * (j 1).val = win0_2.index t (1 : Fin 2) * 256 + 1 * (j 1).val; omega
    rw [h1]

/-- An entry is in point t's output block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- The ten blocks of 5000 rows cover the 50000 rows: row r is in block r / 5000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  obtain ⟨e0, e1, e2, e3, e4, e5⟩ := where0 ⟨(i 0).val / 5000, by rw [hN]; omega⟩
  refine ⟨⟨(i 0).val / 5000, by rw [hN]; omega⟩, flush0_2 _, ?_⟩
  rw [mem_blk0]
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e5]; show (i 0).val / 5000 * 5000 ≤ (i 0).val ∧ (i 0).val < (i 0).val / 5000 * 5000 + 5000; omega
  | ⟨1, _⟩ =>
    show win0_2.index ⟨(i 0).val / 5000, _⟩ (1 : Fin 2) * 256 ≤ (i 1).val ∧ (i 1).val < win0_2.index ⟨(i 0).val / 5000, _⟩ (1 : Fin 2) * 256 + 256
    rw [e4]; omega

/-- After the first grid its output array is the product of the two arrays it found. -/
theorem array0 (c : Dev nD) : (dat0 V c).arrAt 2 cfg0.N = prod0 (V c main_v30) (V c main_v31) :=
  (dat0 V c).arrAt_eq_of_cover 2 (prod0 (V c main_v30) (V c main_v31)) (fun t _ => flushed0_eq V c t) cover0

/-! ## The second grid: [50000, 256] · [256, 128] by blocks of 5000 rows -/

/-- Row i₀ of the whole left factor at contraction index k. -/
abbrev lrowA1 (i : S50000x128.Idx) (k : Fin 256) : S50000x256.Idx := fun a => match a with
  | ⟨0, _⟩ => ⟨(i 0).val, (i 0).isLt⟩
  | ⟨1, _⟩ => ⟨k.val, k.isLt⟩
/-- Column i₁ of the right factor at contraction index k. -/
abbrev rcolA1 (i : S50000x128.Idx) (k : Fin 256) : S256x128.Idx := fun a => match a with
  | ⟨0, _⟩ => ⟨k.val, k.isLt⟩
  | ⟨1, _⟩ => ⟨(i 1).val, (i 1).isLt⟩

/-- The matrix product over the extended reals: entry (r, c) is the sum over k of x(r, k) · w(k, c). -/
def prod1 (x : Vec Ideal S50000x256 .bf16) (w : Vec Ideal S256x128 .bf16) : Vec Ideal S50000x128 .f32 :=
  fun i => ∑ k : Fin 256, x (lrowA1 i k) * w (rcolA1 i k)

/-- One entry of a block's product is one entry of the whole product, once the block's row and the factor's column are
    the whole arrays' row and column. -/
theorem entry1 (X : Vec Ideal S50000x256 .bf16) (W : Vec Ideal S256x128 .bf16) (xb : Vec Ideal S5000x256 .bf16) (wb : Vec Ideal S256x128 .bf16)
    (j : S5000x128.Idx) (i : S50000x128.Idx) (hx : ∀ k, xb (lrow1 j k) = X (lrowA1 i k)) (hw : ∀ k, wb (rcol1 j k) = W (rcolA1 i k)) :
    k1_pay1 (F := Ideal) xb wb j = prod1 X W i :=
  (pay1_apply xb wb j).trans (Finset.sum_congr rfl fun k _ => by rw [hx k, hw k])

/-- Where the blocks sit: at point t the left factor's block and the output's block are rows 5000·t … 5000·t + 4999, all
    columns; the right factor's block is the whole factor. -/
theorem where1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0 ∧ win1_2.index t (1 : Fin 2) = 0 ∧ win1_2.index t (0 : Fin 2) = t.val :=
  (by decide +kernel : ∀ t : Fin grid1.N, _)

/-- What point t writes back is block t of the product of the two arrays the grid finds. -/
theorem flushed1_eq (c : Dev nD) (t : Fin cfg1.N) :
    (dat1 V c).flushed 2 t = ((cfg1.win 2).blk t).view.read (Elt Ideal) (prod1 (V c main_v50) (V c main_v51)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨e0, e1, e2, e3, e4, e5⟩ := where1 t
  funext j
  refine entry1 (V c main_v50) (V c main_v51) (iblk1 V c 0 t) (iblk1 V c 1 t) j (((cfg1.win 2).blk t).view.emb j) (fun k => ?_) (fun k => ?_)
  · show V c main_v50 (((cfg1.win 0).blk t).view.emb (lrow1 j k)) = V c main_v50 (lrowA1 (((cfg1.win 2).blk t).view.emb j) k)
    have h0 : ((cfg1.win 0).blk t).view.emb (lrow1 j k) = lrowA1 (((cfg1.win 2).blk t).view.emb j) k := by
      funext a; apply Fin.ext
      match a with
      | ⟨0, _⟩ => show win1_0.index t (0 : Fin 2) * 5000 + 1 * (j 0).val = win1_2.index t (0 : Fin 2) * 5000 + 1 * (j 0).val; omega
      | ⟨1, _⟩ => show win1_0.index t (1 : Fin 2) * 256 + 1 * k.val = k.val; omega
    rw [h0]
  · show V c main_v51 (((cfg1.win 1).blk t).view.emb (rcol1 j k)) = V c main_v51 (rcolA1 (((cfg1.win 2).blk t).view.emb j) k)
    have h1 : ((cfg1.win 1).blk t).view.emb (rcol1 j k) = rcolA1 (((cfg1.win 2).blk t).view.emb j) k := by
      funext a; apply Fin.ext
      match a with
      | ⟨0, _⟩ => show win1_1.index t (0 : Fin 2) * 256 + 1 * k.val = k.val; omega
      | ⟨1, _⟩ => show win1_1.index t (1 : Fin 2) * 128 + 1 * (j 1).val = win1_2.index t (1 : Fin 2) * 128 + 1 * (j 1).val; omega
    rw [h1]

/-- An entry is in point t's output block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v52).slice (win1_2.rect t)).set ↔ _
  rw [View.set_slice_whole, Rect.mem_set_unit]
  exact Iff.rfl

/-- The ten blocks of 5000 rows cover the 50000 rows: row r is in block r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨e0, e1, e2, e3, e4, e5⟩ := where1 ⟨(i 0).val / 5000, by rw [hN]; omega⟩
  refine ⟨⟨(i 0).val / 5000, by rw [hN]; omega⟩, flush1_2 _, ?_⟩
  rw [mem_blk1]
  intro a
  match a with
  | ⟨0, _⟩ =>
    show win1_2.index ⟨(i 0).val / 5000, _⟩ (0 : Fin 2) * 5000 ≤ (i 0).val ∧ (i 0).val < win1_2.index ⟨(i 0).val / 5000, _⟩ (0 : Fin 2) * 5000 + 5000
    rw [e5]; show (i 0).val / 5000 * 5000 ≤ (i 0).val ∧ (i 0).val < (i 0).val / 5000 * 5000 + 5000; omega
  | ⟨1, _⟩ =>
    show win1_2.index ⟨(i 0).val / 5000, _⟩ (1 : Fin 2) * 128 ≤ (i 1).val ∧ (i 1).val < win1_2.index ⟨(i 0).val / 5000, _⟩ (1 : Fin 2) * 128 + 128
    rw [e4]; omega

/-- After the second grid its output array is the product of the two arrays it found. -/
theorem array1 (c : Dev nD) : (dat1 V c).arrAt 2 cfg1.N = prod1 (V c main_v50) (V c main_v51) :=
  (dat1 V c).arrAt_eq_of_cover 2 (prod1 (V c main_v50) (V c main_v51)) (fun t _ => flushed1_eq V c t) cover1

end Cert.KernelIdeal.Blocks

end
-- ==== Proof.Stages.lean ====
/-
  The graph convolution's host side, as functions of arrays. Both programs compute, around their two matrix products, the
  same things from the edge list and the biases; they are named here once, for any float values:
    * the edge endpoints with one self loop per node appended (source ids, target ids: 800000 edges + 50000 loops);
    * the symmetric normalisation: with deg the number of edges into each node, 1/sqrt(deg) where deg > 0 and 0 elsewhere,
      and per edge the product of that at its source and at its target (a negative id is read from the end);
    * one aggregation: per edge the features of its source node times the edge's coefficient, added into the row of its
      target node, plus the bias on every row;
    * max(·, 0).
-/
import proofs.«110435_j10960756540204_1_alg».proof.ReferenceIdeal
import proofs.«110435_j10960756540204_1_alg».proof.Proof.Gen.ReferenceIdeal

noncomputable section

open Idealize.ShloMosaic Idealize.ShloMosaic.TcCoe Idealize.SL.Sem

namespace Cert.ReferenceIdeal.Stages

open Cert.ReferenceIdeal Cert.ReferenceIdeal.Gen

variable {F : FTy → Type} [FloatOps F]

/-- The source ids: row 0 of the edge list, then 0 … 49999 for the self loops. -/
def srcIds (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The target ids: row 1 of the edge list, then 0 … 49999 for the self loops. -/
def dstIds (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Node ids as start indices of a row lookup: a negative id has 50000 added. -/
def rowOf (ids : (⟨S850000, .i32⟩ : BufTy).Contents (Elt F)) : (⟨S850000x1, .i32⟩ : BufTy).Contents (Elt F) :=
  broadcastInDim S850000x1 ![0] bcast_S850000_S850000x1_0
    (select (cmpi .slt ids (broadcastInDim S850000 ![] bcast_S_S850000 (constantI S_ 32 0#32)))
      (addi ids (broadcastInDim S850000 ![] bcast_S_S850000 (constantI S_ 32 50000#32))) ids)

/-- 1/sqrt(deg) where deg > 0, else 0; deg counts the edges (and the self loop) into each node. -/
def invSqrtDeg (dst : (⟨S850000, .i32⟩ : BufTy).Contents (Elt F)) : (⟨S50000, .f32⟩ : BufTy).Contents (Elt F) :=
  select
    (cmpf .ogt
      (Host.scatterAdd scatter_S50000_S850000x1_S850000_n_0_0_1 (broadcastInDim S50000 ![] bcast_S_S50000 (constant (F := F) S_ .f32 0x00000000#32))
        (broadcastInDim S850000x1 ![0] bcast_S850000_S850000x1_0 dst) (broadcastInDim S850000 ![] bcast_S_S850000 (constant (F := F) S_ .f32 0x3F800000#32)))
      (broadcastInDim S50000 ![] bcast_S_S50000 (constant (F := F) S_ .f32 0x00000000#32)))
    (Host.rsqrt
      (Host.scatterAdd scatter_S50000_S850000x1_S850000_n_0_0_1 (broadcastInDim S50000 ![] bcast_S_S50000 (constant (F := F) S_ .f32 0x00000000#32))
        (broadcastInDim S850000x1 ![0] bcast_S850000_S850000x1_0 dst) (broadcastInDim S850000 ![] bcast_S_S850000 (constant (F := F) S_ .f32 0x3F800000#32))))
    (broadcastInDim S50000 ![] bcast_S_S50000 (id (constant (F := F) S_ .f32 0x00000000#32)))

/-- Per edge: 1/sqrt(deg) at its source times 1/sqrt(deg) at its target. -/
def edgeCoef (src dst : (⟨S850000, .i32⟩ : BufTy).Contents (Elt F)) : (⟨S850000, .f32⟩ : BufTy).Contents (Elt F) :=
  mulf (Host.gather gather_S50000_S850000x1_S850000_n_0_n_n_0_1_1 (invSqrtDeg dst) (rowOf src))
    (Host.gather gather_S50000_S850000x1_S850000_n_0_n_n_0_1_1 (invSqrtDeg dst) (rowOf dst))

/-- The first layer's aggregation over 256 features, plus its bias. -/
def aggregate256 (h : (⟨S50000x256, .f32⟩ : BufTy).Contents (Elt F)) (src dst : (⟨S850000, .i32⟩ : BufTy).Contents (Elt F))
    (coef : (⟨S850000, .f32⟩ : BufTy).Contents (Elt F)) (b : (⟨S256, .f32⟩ : BufTy).Contents (Elt F)) : (⟨S50000x256, .f32⟩ : BufTy).Contents (Elt F) :=
  addf
    (Host.scatterAdd scatter_S50000x256_S850000x1_S850000x256_1_0_0_1 (broadcastInDim S50000x256 ![] bcast_S_S50000x256 (constant (F := F) S_ .f32 0x00000000#32))
      (broadcastInDim S850000x1 ![0] bcast_S850000_S850000x1_0 dst)
      (mulf (Host.gather gather_S50000x256_S850000x1_S850000x256_1_0_n_n_0_1_1256 h (rowOf src))
        (broadcastInDim S850000x256 ![0, 1] bcast_S850000x1_S850000x256_0_1 (broadcastInDim S850000x1 ![0] bcast_S850000_S850000x1_0 coef))))
    (broadcastInDim S50000x256 ![0, 1] bcast_S1x256_S50000x256_0_1 (broadcastInDim S1x256 ![1] bcast_S256_S1x256_1 b))

/-- max(·, 0) on the hidden features. -/
def relu256 (h : (⟨S50000x256, .f32⟩ : BufTy).Contents (Elt F)) : (⟨S50000x256, .f32⟩ : BufTy).Contents (Elt F) :=
  maximumf h (broadcastInDim S50000x256 ![] bcast_S_S50000x256 (constant (F := F) S_ .f32 0x00000000#32))

/-- The second layer's aggregation over 128 features, plus its bias. -/
def aggregate128 (h : (⟨S50000x128, .f32⟩ : BufTy).Contents (Elt F)) (src dst : (⟨S850000, .i32⟩ : BufTy).Contents (Elt F))
    (coef : (⟨S850000, .f32⟩ : BufTy).Contents (Elt F)) (b : (⟨S128, .f32⟩ : BufTy).Contents (Elt F)) : (⟨S50000x128, .f32⟩ : BufTy).Contents (Elt F) :=
  addf
    (Host.scatterAdd scatter_S50000x128_S850000x1_S850000x128_1_0_0_1 (broadcastInDim S50000x128 ![] bcast_S_S50000x128 (constant (F := F) S_ .f32 0x00000000#32))
      (broadcastInDim S850000x1 ![0] bcast_S850000_S850000x1_0 dst)
      (mulf (Host.gather gather_S50000x128_S850000x1_S850000x128_1_0_n_n_0_1_1128 h (rowOf src))
        (broadcastInDim S850000x128 ![0, 1] bcast_S850000x1_S850000x128_0_1 (broadcastInDim S850000x1 ![0] bcast_S850000_S850000x1_0 coef))))
    (broadcastInDim S50000x128 ![0, 1] bcast_S1x128_S50000x128_0_1 (broadcastInDim S1x128 ![1] bcast_S128_S1x128_1 b))

end Cert.ReferenceIdeal.Stages

end
-- ==== Proof.LibFoldSteps.lean ====
/-
  Two general steps for reading the fold of a line of host operations over the buffers' contents.
  `after_append`: the fold of a line cut in two is the second part's fold over the first part's fold.
  `results_by_rw`: reads a fold one operation at a time — each operation's result at its own buffer is its function of
  the operands' contents, and at any other buffer what was there before — also at places inside a list of operands (the
  pieces of a concatenation), where contents appear as members of a list of shaped arrays.
-/
import Idealize.ShloMosaic.Lib.StableHlo.Run

noncomputable section

namespace Cert.Lib

open Idealize.ShloMosaic Idealize.ShloMosaic.StableHlo

/-- Folding a line cut in two is folding the second part over the first part's fold. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The fold's steps, one rewrite at a time: each operation's result at its own buffer is its function of the operands'
    contents, at any other buffer what was there. -/
macro "results_by_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.Lib

end
-- ==== Proof.RefRun.lean ====
/-
  The reference's run. The reference is a straight line of 83 host operations; every weakly fair execution of it terminates
  with each buffer at the fold of the operations' results over the launch memory. The line is cut in three — up to the edge
  coefficients; the first matrix product, the first aggregation and max(·, 0); the second matrix product and the second
  aggregation — and each part's result is read as the stage functions of what the part found. So the result array is the
  two-layer convolution of the arguments, and the arguments end as launched.
-/
import proofs.«110435_j10960756540204_1_alg».proof.Proof.Gen.ReferenceIdeal
import proofs.«110435_j10960756540204_1_alg».proof.Proof.Stages
import proofs.«110435_j10960756540204_1_alg».proof.Proof.LibFoldSteps
import Idealize.ShloMosaic.Lib.StableHlo.Run

noncomputable section

namespace Cert.ReferenceIdeal.Whole

open Cert.ReferenceIdeal Cert.ReferenceIdeal.Gen Cert.ReferenceIdeal.Stages Idealize.ShloMosaic Idealize.ShloMosaic.TcCoe Idealize.SL.Sem Idealize.ShloMosaic.StableHlo Cert.Lib

variable {F : FTy → Type} [FloatOps F]

/-- The operations up to the edge coefficients (a called function's operations stand in its call's place). -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- The first matrix product, the first aggregation and max(·, 0). -/
abbrev opsB : List (HloOp τ sig (Elt F)) :=
  [ binary main_arg0 main_arg2 main_v30 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- The second matrix product and the second aggregation. -/
abbrev opsC : List (HloOp τ sig (Elt F)) :=
  [ binary main_v47 main_arg4 main_v48 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x128 ![0, 1] bcast_S850000x1_S850000x128_0_1 : (⟨S850000x1, .f32⟩ : BufTy).Contents (Elt F) → (⟨S850000x128, .f32⟩ : BufTy).Contents (Elt F)),
    binary main_v55 main_v57 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)) ]

/-- The whole line. -/
abbrev ops : List (HloOp τ sig (Elt F)) := opsA ++ (opsB ++ opsC)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every weakly fair execution of the reference terminates with every buffer at the fold of the three parts. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsC (after opsB (after opsA (launchContents m c))) (Proc.devRef .tc b) :=
  (θ_run defs _ _).mono (fun _ h c b => (h c b).trans (by rw [after_append, after_append]))
    (run_seq scopedRefs_eq scopedSems_eq defs main (fun _ => ops) main_eq (fun _ => ops_sub) m ρ)

end Cert.ReferenceIdeal.Whole

end
-- ==== Proof.RefValue.lean ====
/-
  The reference's three parts, read. Over any contents V found by a part:
    * the first part leaves the source ids, the target ids and the edge coefficients of V's edge list;
    * the second part leaves max(·, 0) of the first aggregation of (features · first weights);
    * the third part leaves the second aggregation of (hidden · second weights);
  and each part leaves alone the buffers it does not write. Composed from the launch memory: the reference's result is the
  two-layer convolution `gcn` of its six arguments, which end as launched.
-/
import proofs.«110435_j10960756540204_1_alg».proof.Proof.RefRun

noncomputable section

namespace Cert.ReferenceIdeal.Whole

open Cert.ReferenceIdeal Cert.ReferenceIdeal.Gen Cert.ReferenceIdeal.Stages Idealize.ShloMosaic Idealize.ShloMosaic.TcCoe Idealize.SL.Sem Idealize.ShloMosaic.StableHlo Cert.Lib

variable {F : FTy → Type} [FloatOps F]

/-- The two-layer graph convolution with the host's matrix products: aggregate(max(aggregate(x·W1) + b1, 0)·W2) + b2. -/
def gcn (x : (⟨S50000x512, .f32⟩ : BufTy).Contents (Elt F)) (e : (⟨S2x800000, .i32⟩ : BufTy).Contents (Elt F))
    (W1 : (⟨S512x256, .f32⟩ : BufTy).Contents (Elt F)) (b1 : (⟨S256, .f32⟩ : BufTy).Contents (Elt F))
    (W2 : (⟨S256x128, .f32⟩ : BufTy).Contents (Elt F)) (b2 : (⟨S128, .f32⟩ : BufTy).Contents (Elt F)) : (⟨S50000x128, .f32⟩ : BufTy).Contents (Elt F) :=
  aggregate128
    (Host.dotGeneral dot_S50000x256_S256x128_S50000x128_1_0_0_1_n_n none
      (relu256 (aggregate256 (Host.dotGeneral dot_S50000x512_S512x256_S50000x256_1_0_0_1_n_n none x W1)
        (srcIds e) (dstIds e) (edgeCoef (srcIds e) (dstIds e)) b1)) W2)
    (srcIds e) (dstIds e) (edgeCoef (srcIds e) (dstIds e)) b2

section Parts
variable (V : Valuation τ sig (Elt F))

/-! ## The first part -/
theorem A_src : after opsA V (Proc.devRef .tc main_v3) = srcIds (V (Proc.devRef .tc main_arg1)) := by after_results_simp; results_by_rw; rfl
theorem A_dst : after opsA V (Proc.devRef .tc main_v6) = dstIds (V (Proc.devRef .tc main_arg1)) := by after_results_simp; results_by_rw; rfl
theorem A_coef : after opsA V (Proc.devRef .tc main_v29) = edgeCoef (srcIds (V (Proc.devRef .tc main_arg1))) (dstIds (V (Proc.devRef .tc main_arg1))) := by after_results_simp; results_by_rw; rfl
theorem A_arg0 : after (opsA) V (Proc.devRef .tc main_arg0) = V (Proc.devRef .tc main_arg0) := by after_results_simp
theorem A_arg1 : after (opsA) V (Proc.devRef .tc main_arg1) = V (Proc.devRef .tc main_arg1) := by after_results_simp
theorem A_arg2 : after (opsA) V (Proc.devRef .tc main_arg2) = V (Proc.devRef .tc main_arg2) := by after_results_simp
theorem A_arg3 : after (opsA) V (Proc.devRef .tc main_arg3) = V (Proc.devRef .tc main_arg3) := by after_results_simp
theorem A_arg4 : after (opsA) V (Proc.devRef .tc main_arg4) = V (Proc.devRef .tc main_arg4) := by after_results_simp
theorem A_arg5 : after (opsA) V (Proc.devRef .tc main_arg5) = V (Proc.devRef .tc main_arg5) := by after_results_simp

/-! ## The second part -/
theorem B_hidden : after opsB V (Proc.devRef .tc main_v47) = relu256 (aggregate256 (Host.dotGeneral dot_S50000x512_S512x256_S50000x256_1_0_0_1_n_n none (V (Proc.devRef .tc main_arg0)) (V (Proc.devRef .tc main_arg2)))
    (V (Proc.devRef .tc main_v3)) (V (Proc.devRef .tc main_v6)) (V (Proc.devRef .tc main_v29)) (V (Proc.devRef .tc main_arg3))) := by after_results_simp; rfl
theorem B_v3 : after (opsB) V (Proc.devRef .tc main_v3) = V (Proc.devRef .tc main_v3) := by after_results_simp
theorem B_v6 : after (opsB) V (Proc.devRef .tc main_v6) = V (Proc.devRef .tc main_v6) := by after_results_simp
theorem B_v29 : after (opsB) V (Proc.devRef .tc main_v29) = V (Proc.devRef .tc main_v29) := by after_results_simp
theorem B_arg0 : after (opsB) V (Proc.devRef .tc main_arg0) = V (Proc.devRef .tc main_arg0) := by after_results_simp
theorem B_arg1 : after (opsB) V (Proc.devRef .tc main_arg1) = V (Proc.devRef .tc main_arg1) := by after_results_simp
theorem B_arg2 : after (opsB) V (Proc.devRef .tc main_arg2) = V (Proc.devRef .tc main_arg2) := by after_results_simp
theorem B_arg3 : after (opsB) V (Proc.devRef .tc main_arg3) = V (Proc.devRef .tc main_arg3) := by after_results_simp
theorem B_arg4 : after (opsB) V (Proc.devRef .tc main_arg4) = V (Proc.devRef .tc main_arg4) := by after_results_simp
theorem B_arg5 : after (opsB) V (Proc.devRef .tc main_arg5) = V (Proc.devRef .tc main_arg5) := by after_results_simp

/-! ## The third part -/
theorem C_out : after opsC V (Proc.devRef .tc main_v64) = aggregate128 (Host.dotGeneral dot_S50000x256_S256x128_S50000x128_1_0_0_1_n_n none (V (Proc.devRef .tc main_v47)) (V (Proc.devRef .tc main_arg4)))
    (V (Proc.devRef .tc main_v3)) (V (Proc.devRef .tc main_v6)) (V (Proc.devRef .tc main_v29)) (V (Proc.devRef .tc main_arg5)) := by after_results_simp; rfl
theorem C_arg0 : after (opsC) V (Proc.devRef .tc main_arg0) = V (Proc.devRef .tc main_arg0) := by after_results_simp
theorem C_arg1 : after (opsC) V (Proc.devRef .tc main_arg1) = V (Proc.devRef .tc main_arg1) := by after_results_simp
theorem C_arg2 : after (opsC) V (Proc.devRef .tc main_arg2) = V (Proc.devRef .tc main_arg2) := by after_results_simp
theorem C_arg3 : after (opsC) V (Proc.devRef .tc main_arg3) = V (Proc.devRef .tc main_arg3) := by after_results_simp
theorem C_arg4 : after (opsC) V (Proc.devRef .tc main_arg4) = V (Proc.devRef .tc main_arg4) := by after_results_simp
theorem C_arg5 : after (opsC) V (Proc.devRef .tc main_arg5) = V (Proc.devRef .tc main_arg5) := by after_results_simp

end Parts

/-- The result buffer after the three parts is the convolution of the launch contents of the six arguments. -/
theorem result_eq (m : (ℓ : Loc nD τ sig) → Buf (Elt F) ℓ) (c : Dev nD) :
    after opsC (after opsB (after opsA (launchContents m c))) (Proc.devRef .tc main_v64)
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [C_out, B_hidden, B_v3, B_v6, B_v29, B_arg4, B_arg5, A_src, A_dst, A_coef, A_arg0, A_arg2, A_arg3, A_arg4, A_arg5]
  rfl

/-- The run, read: the result array at the convolution of the arguments, the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (result_eq m c),
      (h c main_arg0).trans (by rw [C_arg0, B_arg0, A_arg0]),
      (h c main_arg1).trans (by rw [C_arg1, B_arg1, A_arg1]),
      (h c main_arg2).trans (by rw [C_arg2, B_arg2, A_arg2]),
      (h c main_arg3).trans (by rw [C_arg3, B_arg3, A_arg3]),
      (h c main_arg4).trans (by rw [C_arg4, B_arg4, A_arg4]),
      (h c main_arg5).trans (by rw [C_arg5, B_arg5, A_arg5])⟩)
    (run m ρ)

end Cert.ReferenceIdeal.Whole

end
-- ==== Proof.KernelRun.lean ====
/-
  The idealized kernel's whole run, with the RESULT array named. The program is two grids of row blocks among stretches of
  host operations; every weakly fair execution ends with each buffer at the contents obtained by folding the stretches'
  operations and the two grids' write-backs over the launch memory, one after the other. The statement below is that run
  with the result buffer read off the last of those contents, beside the argument arrays, which end as launched.
-/
import proofs.«110435_j10960756540204_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result array ends at the last
    boundary's contents of its buffer, and the six argument arrays end as launched. -/
theorem run_result : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.KernelParts.lean ====
/-
  The stretches of host operations of the idealized kernel, read one group at a time over any contents V they find:
    * before the first grid: the source ids, the target ids and the edge coefficients of V's edge list, and the features
      and the first weights as the grid's operands (each rounded to bf16);
    * between the grids: max(·, 0) of the first aggregation of the first grid's output, and the second weights;
    * after the second grid: the second aggregation of the second grid's output;
  and each group leaves alone the buffers it does not write.
-/
import proofs.«110435_j10960756540204_1_alg».proof.Proof.Gen.KernelIdeal.Launch
import proofs.«110435_j10960756540204_1_alg».proof.Proof.Stages
import proofs.«110435_j10960756540204_1_alg».proof.Proof.LibFoldSteps
import Idealize.ShloMosaic.Lib.StableHlo.Run
import Idealize.ShloMosaic.PureOps.Ideal

set_option maxRecDepth 16384

noncomputable section

namespace Cert.KernelIdeal.Whole

open Cert.KernelIdeal Cert.KernelIdeal.Gen Cert.ReferenceIdeal.Stages
open Idealize.ShloMosaic Idealize.ShloMosaic.TcCoe Idealize.SL.Sem Idealize.ShloMosaic.StableHlo Cert.Lib

section Parts
variable {F : FTy → Type} [FloatOps F] (V : Valuation τ sig (Elt F))

/-! ## Before the first grid -/
theorem p0_src : after hostOps0_2 (after hostOps0_1 (after hostOps0 V)) (Proc.devRef .tc main_v3) = srcIds (V (Proc.devRef .tc main_arg1)) := by after_results_simp; results_by_rw; rfl
theorem p0_dst : after hostOps0_2 (after hostOps0_1 (after hostOps0 V)) (Proc.devRef .tc main_v6) = dstIds (V (Proc.devRef .tc main_arg1)) := by after_results_simp; results_by_rw; rfl
/-- The degree's comparison with zero, after the first stretch. -/
theorem s0_pos : after hostOps0 V (Proc.devRef .tc main_v12) = cmpf .ogt (Host.scatterAdd scatter_S50000_S850000x1_S850000_n_0_0_1 (broadcastInDim S50000 ![] bcast_S_S50000 (constant (F := F) S_ .f32 0x00000000#32))
        (broadcastInDim S850000x1 ![0] bcast_S850000_S850000x1_0 (dstIds (V (Proc.devRef .tc main_arg1)))) (broadcastInDim S850000 ![] bcast_S_S850000 (constant (F := F) S_ .f32 0x3F800000#32)))
      (broadcastInDim S50000 ![] bcast_S_S50000 (constant (F := F) S_ .f32 0x00000000#32)) := by after_results_simp; results_by_rw; rfl
/-- The degree's inverse square root, after the first stretch. -/
theorem s0_rsqrt : after hostOps0 V (Proc.devRef .tc main_v13) = Host.rsqrt (Host.scatterAdd scatter_S50000_S850000x1_S850000_n_0_0_1 (broadcastInDim S50000 ![] bcast_S_S50000 (constant (F := F) S_ .f32 0x00000000#32))
        (broadcastInDim S850000x1 ![0] bcast_S850000_S850000x1_0 (dstIds (V (Proc.devRef .tc main_arg1)))) (broadcastInDim S850000 ![] bcast_S_S850000 (constant (F := F) S_ .f32 0x3F800000#32))) := by after_results_simp; results_by_rw; rfl
theorem s0_zero : after hostOps0 V (Proc.devRef .tc main_cst_2) = constant (F := F) S_ .f32 0x00000000#32 := by after_results_simp
theorem s0_src : after hostOps0 V (Proc.devRef .tc main_v3) = srcIds (V (Proc.devRef .tc main_arg1)) := by after_results_simp; results_by_rw; rfl
theorem s0_dst : after hostOps0 V (Proc.devRef .tc main_v6) = dstIds (V (Proc.devRef .tc main_arg1)) := by after_results_simp; results_by_rw; rfl
/-- The selection of the inverse square root where the degree is positive (the called function's three operations). -/
theorem s1_inv : after hostOps0_1 V (Proc.devRef .tc main_v14) = select (V (Proc.devRef .tc main_v12)) (V (Proc.devRef .tc main_v13)) (broadcastInDim S50000 ![] bcast_S_S50000 (id (V (Proc.devRef .tc main_cst_2)))) := by after_results_simp; rfl
theorem s1_src : after hostOps0_1 V (Proc.devRef .tc main_v3) = V (Proc.devRef .tc main_v3) := by after_results_simp
theorem s1_dst : after hostOps0_1 V (Proc.devRef .tc main_v6) = V (Proc.devRef .tc main_v6) := by after_results_simp
/-- The edge coefficients from the per-node factor and the ids, in the third stretch. -/
theorem s2_coef : after hostOps0_2 V (Proc.devRef .tc main_v29) = mulf (Host.gather gather_S50000_S850000x1_S850000_n_0_n_n_0_1_1 (V (Proc.devRef .tc main_v14)) (rowOf (V (Proc.devRef .tc main_v3))))
      (Host.gather gather_S50000_S850000x1_S850000_n_0_n_n_0_1_1 (V (Proc.devRef .tc main_v14)) (rowOf (V (Proc.devRef .tc main_v6)))) := by after_results_simp; rfl
theorem p0_coef : after hostOps0_2 (after hostOps0_1 (after hostOps0 V)) (Proc.devRef .tc main_v29) = edgeCoef (srcIds (V (Proc.devRef .tc main_arg1))) (dstIds (V (Proc.devRef .tc main_arg1))) := by
  rw [s2_coef, s1_inv, s1_src, s1_dst, s0_pos, s0_rsqrt, s0_zero, s0_src, s0_dst]
  rfl
theorem p0_x : after hostOps0_2 (after hostOps0_1 (after hostOps0 V)) (Proc.devRef .tc main_v30) = truncf .bf16 (V (Proc.devRef .tc main_arg0)) bitsLt_bf16_f32 := by after_results_simp
theorem p0_w : after hostOps0_2 (after hostOps0_1 (after hostOps0 V)) (Proc.devRef .tc main_v31) = truncf .bf16 (V (Proc.devRef .tc main_arg2)) bitsLt_bf16_f32 := by after_results_simp
theorem p0_arg3 : after hostOps0_2 (after hostOps0_1 (after hostOps0 V)) (Proc.devRef .tc main_arg3) = V (Proc.devRef .tc main_arg3) := by after_results_simp
theorem p0_arg4 : after hostOps0_2 (after hostOps0_1 (after hostOps0 V)) (Proc.devRef .tc main_arg4) = V (Proc.devRef .tc main_arg4) := by after_results_simp
theorem p0_arg5 : after hostOps0_2 (after hostOps0_1 (after hostOps0 V)) (Proc.devRef .tc main_arg5) = V (Proc.devRef .tc main_arg5) := by after_results_simp

/-! ## Between the grids -/
theorem p1_hidden : after hostOps1_2 (after hostOps1_1 (after hostOps1 V)) (Proc.devRef .tc main_v50) = truncf .bf16 (relu256 (aggregate256 (V (Proc.devRef .tc main_v32)) (V (Proc.devRef .tc main_v3)) (V (Proc.devRef .tc main_v6)) (V (Proc.devRef .tc main_v29)) (V (Proc.devRef .tc main_arg3)))) bitsLt_bf16_f32 := by after_results_simp; rfl
theorem p1_w : after hostOps1_2 (after hostOps1_1 (after hostOps1 V)) (Proc.devRef .tc main_v51) = truncf .bf16 (V (Proc.devRef .tc main_arg4)) bitsLt_bf16_f32 := by after_results_simp
theorem p1_v3 : after hostOps1_2 (after hostOps1_1 (after hostOps1 V)) (Proc.devRef .tc main_v3) = V (Proc.devRef .tc main_v3) := by after_results_simp
theorem p1_v6 : after hostOps1_2 (after hostOps1_1 (after hostOps1 V)) (Proc.devRef .tc main_v6) = V (Proc.devRef .tc main_v6) := by after_results_simp
theorem p1_v29 : after hostOps1_2 (after hostOps1_1 (after hostOps1 V)) (Proc.devRef .tc main_v29) = V (Proc.devRef .tc main_v29) := by after_results_simp
theorem p1_arg5 : after hostOps1_2 (after hostOps1_1 (after hostOps1 V)) (Proc.devRef .tc main_arg5) = V (Proc.devRef .tc main_arg5) := by after_results_simp

/-! ## After the second grid -/
theorem p2_out : after hostOps2 V (Proc.devRef .tc main_v68) = aggregate128 (V (Proc.devRef .tc main_v52)) (V (Proc.devRef .tc main_v3)) (V (Proc.devRef .tc main_v6)) (V (Proc.devRef .tc main_v29)) (V (Proc.devRef .tc main_arg5)) := by after_results_simp; rfl

end Parts

end Cert.KernelIdeal.Whole

end
-- ==== Proof.KernelValue.lean ====
/-
  The idealized kernel's result, read. Between the launch and the return the buffers' contents pass nine boundaries: three
  stretches of host operations, the first grid, three stretches, the second grid, one stretch. The stretches are read in the
  module before this one; each grid leaves its output array at the product of its two operands (the blocks-to-array module)
  and every other buffer alone; rounding an operand to bf16 is the identity on the extended reals. Followed from the launch
  memory, boundary by boundary: the ids and the edge coefficients are those of the launched edge list at every boundary, the
  first grid's output is features · first weights, the second grid's left operand is max(·, 0) of its aggregation, and the
  result is the second aggregation of the second product — the two-layer convolution with the two products as sums.
-/
import proofs.«110435_j10960756540204_1_alg».proof.Proof.KernelRun
import proofs.«110435_j10960756540204_1_alg».proof.Proof.BlockProducts
import proofs.«110435_j10960756540204_1_alg».proof.Proof.Stages
import proofs.«110435_j10960756540204_1_alg».proof.Proof.KernelParts
import Idealize.ShloMosaic.Lib.StableHlo.Run

set_option maxRecDepth 16384

noncomputable section

namespace Cert.KernelIdeal.Whole

open Cert.KernelIdeal Cert.KernelIdeal.Gen Cert.KernelIdeal.Blocks Cert.ReferenceIdeal.Stages
open Idealize.ShloMosaic Idealize.ShloMosaic.TcCoe Idealize.SL.Sem Idealize.ShloMosaic.StableHlo

/-- The two-layer graph convolution with the two matrix products as sums over the contracted index. -/
def kgcn (x : (⟨S50000x512, .f32⟩ : BufTy).Contents (Elt Ideal)) (e : (⟨S2x800000, .i32⟩ : BufTy).Contents (Elt Ideal))
    (W1 : (⟨S512x256, .f32⟩ : BufTy).Contents (Elt Ideal)) (b1 : (⟨S256, .f32⟩ : BufTy).Contents (Elt Ideal))
    (W2 : (⟨S256x128, .f32⟩ : BufTy).Contents (Elt Ideal)) (b2 : (⟨S128, .f32⟩ : BufTy).Contents (Elt Ideal)) : (⟨S50000x128, .f32⟩ : BufTy).Contents (Elt Ideal) :=
  aggregate128
    (prod1 (relu256 (aggregate256 (prod0 x W1) (srcIds e) (dstIds e) (edgeCoef (srcIds e) (dstIds e)) b1)) W2)
    (srcIds e) (dstIds e) (edgeCoef (srcIds e) (dstIds e)) b2

/-- Rounding to bf16 is the identity on the extended reals. -/
theorem round_id {s : Shape} (x : FVec Ideal s .f32) (h : FTy.bits .bf16 < FTy.bits .f32) : (truncf .bf16 x h : FVec Ideal s .bf16) = x := rfl

variable (m : (ℓ : Loc nD τ sig) → Buf (Elt Ideal) ℓ) (ρ : Dev nD → PrngReg) (c : Dev nD)

/-! ## The ids and the edge coefficients at the boundaries -/
theorem src3 : W3 m ρ c (Proc.devRef .tc main_v3) = srcIds (m ((c : Thread nD τ).loc main_arg1)) := p0_src (W0 m ρ c)
theorem src4 : W4 m ρ c (Proc.devRef .tc main_v3) = srcIds (m ((c : Thread nD τ).loc main_arg1)) := (W4_of_ne m ρ c main_v3 (by decide)).trans (src3 m ρ c)
theorem src7 : W7 m ρ c (Proc.devRef .tc main_v3) = srcIds (m ((c : Thread nD τ).loc main_arg1)) := (p1_v3 (W4 m ρ c)).trans (src4 m ρ c)
theorem src8 : W8 m ρ c (Proc.devRef .tc main_v3) = srcIds (m ((c : Thread nD τ).loc main_arg1)) := (W8_of_ne m ρ c main_v3 (by decide)).trans (src7 m ρ c)
theorem dst3 : W3 m ρ c (Proc.devRef .tc main_v6) = dstIds (m ((c : Thread nD τ).loc main_arg1)) := p0_dst (W0 m ρ c)
theorem dst4 : W4 m ρ c (Proc.devRef .tc main_v6) = dstIds (m ((c : Thread nD τ).loc main_arg1)) := (W4_of_ne m ρ c main_v6 (by decide)).trans (dst3 m ρ c)
theorem dst7 : W7 m ρ c (Proc.devRef .tc main_v6) = dstIds (m ((c : Thread nD τ).loc main_arg1)) := (p1_v6 (W4 m ρ c)).trans (dst4 m ρ c)
theorem dst8 : W8 m ρ c (Proc.devRef .tc main_v6) = dstIds (m ((c : Thread nD τ).loc main_arg1)) := (W8_of_ne m ρ c main_v6 (by decide)).trans (dst7 m ρ c)
theorem coef3 : W3 m ρ c (Proc.devRef .tc main_v29) = edgeCoef (srcIds (m ((c : Thread nD τ).loc main_arg1))) (dstIds (m ((c : Thread nD τ).loc main_arg1))) := p0_coef (W0 m ρ c)
theorem coef4 : W4 m ρ c (Proc.devRef .tc main_v29) = edgeCoef (srcIds (m ((c : Thread nD τ).loc main_arg1))) (dstIds (m ((c : Thread nD τ).loc main_arg1))) := (W4_of_ne m ρ c main_v29 (by decide)).trans (coef3 m ρ c)
theorem coef7 : W7 m ρ c (Proc.devRef .tc main_v29) = edgeCoef (srcIds (m ((c : Thread nD τ).loc main_arg1))) (dstIds (m ((c : Thread nD τ).loc main_arg1))) := (p1_v29 (W4 m ρ c)).trans (coef4 m ρ c)
theorem coef8 : W8 m ρ c (Proc.devRef .tc main_v29) = edgeCoef (srcIds (m ((c : Thread nD τ).loc main_arg1))) (dstIds (m ((c : Thread nD τ).loc main_arg1))) := (W8_of_ne m ρ c main_v29 (by decide)).trans (coef7 m ρ c)

/-! ## The biases and the second weights at the boundaries where they are read -/
theorem bias1_4 : W4 m ρ c (Proc.devRef .tc main_arg3) = (m ((c : Thread nD τ).loc main_arg3)) := (W4_of_ne m ρ c main_arg3 (by decide)).trans (p0_arg3 (W0 m ρ c))
theorem weights2_4 : W4 m ρ c (Proc.devRef .tc main_arg4) = (m ((c : Thread nD τ).loc main_arg4)) := (W4_of_ne m ρ c main_arg4 (by decide)).trans (p0_arg4 (W0 m ρ c))
theorem bias2_8 : W8 m ρ c (Proc.devRef .tc main_arg5) = (m ((c : Thread nD τ).loc main_arg5)) :=
  (W8_of_ne m ρ c main_arg5 (by decide)).trans ((p1_arg5 (W4 m ρ c)).trans ((W4_of_ne m ρ c main_arg5 (by decide)).trans (p0_arg5 (W0 m ρ c))))

/-! ## The two products -/

/-- The first grid's output: features · first weights. -/
theorem first_product : W4 m ρ c (Proc.devRef .tc main_v32) = prod0 (m ((c : Thread nD τ).loc main_arg0)) (m ((c : Thread nD τ).loc main_arg2)) :=
  ((W4_arr m ρ c 2).trans (array0 (V3 m ρ) c)).trans
    (congrArg₂ prod0 ((p0_x (W0 m ρ c)).trans (round_id _ _)) ((p0_w (W0 m ρ c)).trans (round_id _ _)))

/-- The hidden features as the second grid's left operand. -/
theorem hidden : W7 m ρ c (Proc.devRef .tc main_v50) = relu256 (aggregate256 (prod0 (m ((c : Thread nD τ).loc main_arg0)) (m ((c : Thread nD τ).loc main_arg2))) (srcIds (m ((c : Thread nD τ).loc main_arg1))) (dstIds (m ((c : Thread nD τ).loc main_arg1))) (edgeCoef (srcIds (m ((c : Thread nD τ).loc main_arg1))) (dstIds (m ((c : Thread nD τ).loc main_arg1)))) (m ((c : Thread nD τ).loc main_arg3))) := by
  have h : (W7 m ρ c (Proc.devRef .tc main_v50) : FVec Ideal S50000x256 .bf16) = truncf .bf16 (relu256 (aggregate256 (W4 m ρ c (Proc.devRef .tc main_v32)) (W4 m ρ c (Proc.devRef .tc main_v3)) (W4 m ρ c (Proc.devRef .tc main_v6)) (W4 m ρ c (Proc.devRef .tc main_v29)) (W4 m ρ c (Proc.devRef .tc main_arg3)))) bitsLt_bf16_f32 := p1_hidden (W4 m ρ c)
  rw [h, round_id, first_product, src4, dst4, coef4, bias1_4]

/-- The second grid's output: hidden · second weights. -/
theorem second_product : W8 m ρ c (Proc.devRef .tc main_v52) = prod1 (relu256 (aggregate256 (prod0 (m ((c : Thread nD τ).loc main_arg0)) (m ((c : Thread nD τ).loc main_arg2))) (srcIds (m ((c : Thread nD τ).loc main_arg1))) (dstIds (m ((c : Thread nD τ).loc main_arg1))) (edgeCoef (srcIds (m ((c : Thread nD τ).loc main_arg1))) (dstIds (m ((c : Thread nD τ).loc main_arg1)))) (m ((c : Thread nD τ).loc main_arg3)))) (m ((c : Thread nD τ).loc main_arg4)) :=
  ((W8_arr m ρ c 2).trans (array1 (V7 m ρ) c)).trans
    (congrArg₂ prod1 (hidden m ρ c) (((p1_w (W4 m ρ c)).trans (round_id _ _)).trans (weights2_4 m ρ c)))

/-- The result buffer at the last boundary is the convolution of the launch contents of the six arguments. -/
theorem result_eq :
    W9 m ρ c (Proc.devRef .tc main_v68) = kgcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : W9 m ρ c (Proc.devRef .tc main_v68) = aggregate128 (W8 m ρ c (Proc.devRef .tc main_v52)) (W8 m ρ c (Proc.devRef .tc main_v3)) (W8 m ρ c (Proc.devRef .tc main_v6)) (W8 m ρ c (Proc.devRef .tc main_v29)) (W8 m ρ c (Proc.devRef .tc main_arg5)) := p2_out (W8 m ρ c)
  rw [h, second_product, src8, dst8, coef8, bias2_8]
  rfl

/-- The run, read: the result array at the convolution of the arguments, the arguments unchanged. -/
theorem run_value : θ_run defs (onTc (τ := τ) (main (F := Ideal))) ⟨m, fun _ => 0, ρ⟩ fun r => ∀ c : Dev nD,
      r.2.mem ((c.tc : Thread nD τ).loc main_v68) = kgcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m ρ c), (h c).2⟩) (run_result m ρ)

end Cert.KernelIdeal.Whole

end
-- ==== Proof.Bridge.lean ====
/-
  The one law that joins the two sides. Over the extended reals the host's matrix product of two arrays and the product
  assembled from the grid's ten row blocks are the same function: entry (r, c) is the sum over the contracted index k of
  left(r, k) · right(k, c), whatever the entries are (no finiteness is used: only the definition of the two products as
  sums). Everything around the two products is the same chain of host operations on both sides, so the two-layer
  convolution with the host's products is the one with the block products.
-/
import proofs.«110435_j10960756540204_1_alg».proof.Proof.BlockProducts
import proofs.«110435_j10960756540204_1_alg».proof.Proof.RefValue
import proofs.«110435_j10960756540204_1_alg».proof.Proof.KernelValue
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.Bridge

open Cert.KernelIdeal.Blocks Cert.ReferenceIdeal.Stages

/-! ## The first product -/
theorem lhs0_0 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.lhsIdx i q 0).val = (i 0).val := by
  unfold DotDims.lhsIdx
  rw [dif_neg (show ¬(0 : Fin Cert.ReferenceIdeal.S50000x512.rank) ∈ Cert.ReferenceIdeal.dot_S50000x512_S512x256_S50000x256_1_0_0_1_n_n.lhsBatch by decide), dif_pos (show (0 : Fin Cert.ReferenceIdeal.S50000x512.rank) ∈ Cert.ReferenceIdeal.dot_S50000x512_S512x256_S50000x256_1_0_0_1_n_n.lhsNonContracting by decide)]
  rfl
theorem lhs0_1 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.lhsIdx i q 1).val = (q ⟨0, by decide⟩).val :=
  Cert.ReferenceIdeal.dot_S50000x512_S512x256_S50000x256_1_0_0_1_n_n.lhsIdx_val_of_single rfl i q
theorem rhs0_0 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.rhsIdx i q 0).val = (q ⟨0, by decide⟩).val :=
  Cert.ReferenceIdeal.dot_S50000x512_S512x256_S50000x256_1_0_0_1_n_n.rhsIdx_val_of_single rfl i q
theorem rhs0_1 (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.rhsIdx i q 1).val = (i 1).val := by
  unfold DotDims.rhsIdx
  rw [dif_neg (show ¬(1 : Fin Cert.ReferenceIdeal.S512x256.rank) ∈ Cert.ReferenceIdeal.dot_S50000x512_S512x256_S50000x256_1_0_0_1_n_n.rhsBatch by decide), dif_pos (show (1 : Fin Cert.ReferenceIdeal.S512x256.rank) ∈ Cert.ReferenceIdeal.dot_S50000x512_S512x256_S50000x256_1_0_0_1_n_n.rhsNonContracting by decide)]
  rfl

/-- The host's product over the extended reals is the same sum over the contracted index. -/
theorem dot0_eq (x : (⟨Cert.ReferenceIdeal.S50000x512, .f32⟩ : BufTy).Contents (Elt Ideal)) (w : (⟨Cert.ReferenceIdeal.S512x256, .f32⟩ : BufTy).Contents (Elt Ideal)) :
    Host.dotGeneral (F := Ideal) (φ₁ := .f32) (φ₂ := .f32) Cert.ReferenceIdeal.dot_S50000x512_S512x256_S50000x256_1_0_0_1_n_n none x w = prod0 x w := by
  funext i
  simp only [Host.dotGeneral]
  rw [Ideal.dotGeneral_apply, ← Equiv.sum_comp (ValueIdx.contrEquiv1 Cert.ReferenceIdeal.dot_S50000x512_S512x256_S50000x256_1_0_0_1_n_n 512 rfl rfl).symm]
  refine Finset.sum_congr rfl fun k _ => ?_
  have hk := ValueIdx.contrEquiv1_symm_val Cert.ReferenceIdeal.dot_S50000x512_S512x256_S50000x256_1_0_0_1_n_n 512 rfl rfl k
  have el : Cert.ReferenceIdeal.dot_S50000x512_S512x256_S50000x256_1_0_0_1_n_n.lhsIdx i ((ValueIdx.contrEquiv1 Cert.ReferenceIdeal.dot_S50000x512_S512x256_S50000x256_1_0_0_1_n_n 512 rfl rfl).symm k) = lrowA0 i k := funext fun a => Fin.ext (by
    match a with
    | ⟨0, _⟩ => exact lhs0_0 _ _
    | ⟨1, _⟩ => exact (lhs0_1 _ _).trans hk)
  have er : Cert.ReferenceIdeal.dot_S50000x512_S512x256_S50000x256_1_0_0_1_n_n.rhsIdx i ((ValueIdx.contrEquiv1 Cert.ReferenceIdeal.dot_S50000x512_S512x256_S50000x256_1_0_0_1_n_n 512 rfl rfl).symm k) = rcolA0 i k := funext fun a => Fin.ext (by
    match a with
    | ⟨0, _⟩ => exact (rhs0_0 _ _).trans hk
    | ⟨1, _⟩ => exact rhs0_1 _ _)
  rw [el, er]

/-! ## The second product -/
theorem lhs1_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem lhs1_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rhs1_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rhs1_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- The host's product over the extended reals is the same sum over the contracted index. -/
theorem dot1_eq (x : (⟨Cert.ReferenceIdeal.S50000x256, .f32⟩ : BufTy).Contents (Elt Ideal)) (w : (⟨Cert.ReferenceIdeal.S256x128, .f32⟩ : BufTy).Contents (Elt Ideal)) :
    Host.dotGeneral (F := Ideal) (φ₁ := .f32) (φ₂ := .f32) Cert.ReferenceIdeal.dot_S50000x256_S256x128_S50000x128_1_0_0_1_n_n none x w = prod1 x w := by
  funext i
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = lrowA1 i k := funext fun a => Fin.ext (by
    match a with
    | ⟨0, _⟩ => exact lhs1_0 _ _
    | ⟨1, _⟩ => exact (lhs1_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = rcolA1 i k := funext fun a => Fin.ext (by
    match a with
    | ⟨0, _⟩ => exact (rhs1_0 _ _).trans hk
    | ⟨1, _⟩ => exact rhs1_1 _ _)
  rw [el, er]

/-- The convolution with the host's products is the convolution with the block products. -/
theorem gcn_eq (x : (⟨Cert.ReferenceIdeal.S50000x512, .f32⟩ : BufTy).Contents (Elt Ideal)) (e : (⟨Cert.ReferenceIdeal.S2x800000, .i32⟩ : BufTy).Contents (Elt Ideal))
    (W1 : (⟨Cert.ReferenceIdeal.S512x256, .f32⟩ : BufTy).Contents (Elt Ideal)) (b1 : (⟨Cert.ReferenceIdeal.S256, .f32⟩ : BufTy).Contents (Elt Ideal))
    (W2 : (⟨Cert.ReferenceIdeal.S256x128, .f32⟩ : BufTy).Contents (Elt Ideal)) (b2 : (⟨Cert.ReferenceIdeal.S128, .f32⟩ : BufTy).Contents (Elt Ideal)) :
    Cert.ReferenceIdeal.Whole.gcn (F := Ideal) x e W1 b1 W2 b2 = Cert.KernelIdeal.Whole.kgcn x e W1 b1 W2 b2 := by
  unfold Cert.ReferenceIdeal.Whole.gcn Cert.KernelIdeal.Whole.kgcn
  rw [dot0_eq, dot1_eq]

end Cert.Bridge

end
-- ==== Proof.lean ====
/-
  A two-layer graph convolution, aggregate(max(aggregate(x·W1) + b1, 0)·W2) + b2 over an edge list with self loops and the
  symmetric degree normalisation, whose two matrix products run as grids of ten blocks of 5000 rows with bf16 operands,
  against the same convolution with the host's matrix products.

  Over the extended reals rounding to bf16 is the identity, and a product assembled from ten row blocks is the host's
  product: entry (r, c) of either is the sum over k of left(r, k) · right(k, c). Everything else — the edge endpoints, the
  degrees, the coefficients 1/sqrt(deg_src)·1/sqrt(deg_dst), the gather–scale–scatter-add aggregations, the biases and
  max(·, 0) — is the same chain of host operations on both sides, carried as named functions and never opened. No
  finiteness of the inputs is used: the precondition is not opened.

  The three frames: the two kernel programs' are the generated frame certificates; the reference's is its run with the
  result dropped. The idealization rewrote nothing, so `preserves` is trivial.
-/
import proofs.«110435_j10960756540204_1_alg».proof.Defs
import proofs.«110435_j10960756540204_1_alg».proof.Proof.Gen.Kernel
import proofs.«110435_j10960756540204_1_alg».proof.Proof.Gen.Kernel.Skeleton
import proofs.«110435_j10960756540204_1_alg».proof.Proof.Gen.Kernel.Launch
import proofs.«110435_j10960756540204_1_alg».proof.Proof.Gen.Kernel.Points
import proofs.«110435_j10960756540204_1_alg».proof.Proof.Gen.Kernel.Frame
import proofs.«110435_j10960756540204_1_alg».proof.Proof.Gen.KernelIdeal
import proofs.«110435_j10960756540204_1_alg».proof.Proof.Gen.KernelIdeal.Skeleton
import proofs.«110435_j10960756540204_1_alg».proof.Proof.Gen.KernelIdeal.Launch
import proofs.«110435_j10960756540204_1_alg».proof.Proof.Gen.KernelIdeal.Points
import proofs.«110435_j10960756540204_1_alg».proof.Proof.Gen.KernelIdeal.Frame
import proofs.«110435_j10960756540204_1_alg».proof.Proof.Gen.ReferenceIdeal
import proofs.«110435_j10960756540204_1_alg».proof.Proof.Gen.Pre_finite_inputs
import proofs.«110435_j10960756540204_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Whole.run_value (F := Ideal) m ρ)

/-- The idealization rewrote no operation. -/
theorem preserves : Cert.preserves_Kernel_KernelIdeal := trivial

/-- From memories agreeing on the six arguments both programs end with the same result array: the kernel's is the
    convolution with the block products, the reference's the convolution with the host's products, of the same arguments. -/
theorem algebraic : Cert.algebraic_KernelIdeal_ReferenceIdeal := by
  intro m ρ m' ρ' _ hagree
  refine ⟨fun c => Cert.KernelIdeal.Whole.kgcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run_value m ρ, ?_⟩
  refine (θ_run Cert.ReferenceIdeal.defs _ _).mono (fun _ h c => ⟨(h c).1.trans ?_, (h c).2⟩)
    (Cert.ReferenceIdeal.Whole.run_value (F := Ideal) m' ρ')
  rw [(hagree c).1, (hagree c).2.1, (hagree c).2.2.1, (hagree c).2.2.2.1, (hagree c).2.2.2.2.1, (hagree c).2.2.2.2.2]
  exact Cert.Bridge.gcn_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
